-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S64x16x32 : Shape := ⟨3, ![64, 16, 32]⟩
abbrev S64x16 : Shape := ⟨2, ![64, 16]⟩
abbrev S64x16x2 : Shape := ⟨3, ![64, 16, 2]⟩
abbrev S_ : Shape := ⟨0, ![]⟩
abbrev S64x16x1 : Shape := ⟨3, ![64, 16, 1]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S64x16x32 : S_.BroadcastsInDim S64x16x32 (![] : Fin 0 → Fin S64x16x32.rank)
  reducesTo_S64x16x32_S_d0_1_2 : S64x16x32.ReducesTo [0, 1, 2] S_
  bcast_S_S64x16 : S_.BroadcastsInDim S64x16 (![] : Fin 0 → Fin S64x16.rank)
  reducesTo_S64x16_S_d0_1 : S64x16.ReducesTo [0, 1] S_
  bcast_S_S64x16x2 : S_.BroadcastsInDim S64x16x2 (![] : Fin 0 → Fin S64x16x2.rank)
  reducesTo_S64x16x2_S_d0_1_2 : S64x16x2.ReducesTo [0, 1, 2] S_
  slices_S64x16x2_S64x16x1_0_0_0 : S64x16x2.Slices ![0, 0, 0] S64x16x1
  shapeCasts_S64x16x1_S64x16 : S64x16x1.ShapeCasts S64x16
  slices_S64x16x2_S64x16x1_0_0_1 : S64x16x2.Slices ![0, 0, 1] S64x16x1

variable [Facts]

def fn_part1 {F : FTy → Type} [FloatOps F] (main_arg3 : FVec F S64x16x2 .f32) (main_v13 : IVec S_ 1) (main_v16 : IVec S64x16x2 1) : IVec S_ 1 :=
  let main_c_5 : IVec S_ 1 := constantI S_ 1 1#1
  let main_v17 : IVec S_ 1 := (fun x v => Host.reduce IntOp.andi x v reducesTo_S64x16x2_S_d0_1_2 h_S_) main_v16 main_c_5
  let main_v18 : IVec S_ 1 := andi main_v13 main_v17
  let main_v19 : FVec F S64x16x1 .f32 := (extractStridedSlice S64x16x1 ![0, 0, 0] · slices_S64x16x2_S64x16x1_0_0_0) main_arg3
  let main_v20 : FVec F S64x16 .f32 := shapeCast S64x16 main_v19 shapeCasts_S64x16x1_S64x16
  let main_v21 : FVec F S64x16x1 .f32 := (extractStridedSlice S64x16x1 ![0, 0, 1] · slices_S64x16x2_S64x16x1_0_0_1) main_arg3
  let main_v22 : FVec F S64x16 .f32 := shapeCast S64x16 main_v21 shapeCasts_S64x16x1_S64x16
  let main_v23 : FVec F S64x16 .f32 := subf main_v20 main_v22
  let main_cst_6 : FVec F S_ .f32 := constant S_ .f32 0x0F4AD2F8#32
  let main_v24 : FVec F S64x16 .f32 := broadcastInDim S64x16 ![] bcast_S_S64x16 main_cst_6
  let main_v25 : FVec F S64x16 .f32 := addf main_v23 main_v24
  let main_cst_7 : FVec F S_ .f32 := constant S_ .f32 0x00000000#32
  let main_v26 : FVec F S64x16 .f32 := broadcastInDim S64x16 ![] bcast_S_S64x16 main_cst_7
  let main_v27 : IVec S64x16 1 := cmpf .une main_v25 main_v26
  let main_c_8 : IVec S_ 1 := constantI S_ 1 1#1
  let main_v28 : IVec S_ 1 := (fun x v => Host.reduce IntOp.andi x v reducesTo_S64x16_S_d0_1 h_S_) main_v27 main_c_8
  let main_v29 : IVec S_ 1 := andi main_v18 main_v28
  main_v29

def fn {F : FTy → Type} [FloatOps F] (main_arg0 : FVec F S200000x32 .f32) (main_arg1 : FVec F S64x16x32 .f32) (main_arg2 : FVec F S64x16 .f32) (main_arg3 : FVec F S64x16x2 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S64x16x32 .f32 := Host.absf main_arg1
  let main_cst_0 : FVec F S_ .f32 := constant S_ .f32 0x7F800000#32
  let main_v5 : FVec F S64x16x32 .f32 := broadcastInDim S64x16x32 ![] bcast_S_S64x16x32 main_cst_0
  let main_v6 : IVec S64x16x32 1 := cmpf .olt main_v4 main_v5
  let main_c_1 : IVec S_ 1 := constantI S_ 1 1#1
  let main_v7 : IVec S_ 1 := (fun x v => Host.reduce IntOp.andi x v reducesTo_S64x16x32_S_d0_1_2 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64x16x2 .f32 := Host.absf main_arg3
  let main_cst_4 : FVec F S_ .f32 := constant S_ .f32 0x7F800000#32
  let main_v15 : FVec F S64x16x2 .f32 := broadcastInDim S64x16x2 ![] bcast_S_S64x16x2 main_cst_4
  let main_v16 : IVec S64x16x2 1 := cmpf .olt main_v14 main_v15
  fn_part1 (F := F) main_arg3 main_v13 main_v16
-- ==== Kernel.lean ====
abbrev S200000x32 : Shape := ⟨2, ![200000, 32]⟩
abbrev S64x16x32 : Shape := ⟨3, ![64, 16, 32]⟩
abbrev S64x16 : Shape := ⟨2, ![64, 16]⟩
abbrev S64x16x2 : Shape := ⟨3, ![64, 16, 2]⟩
abbrev S_ : Shape := ⟨0, ![]⟩
abbrev S64x16x1 : Shape := ⟨3, ![64, 16, 1]⟩
abbrev S1024x32 : Shape := ⟨2, ![1024, 32]⟩
abbrev S32x1024 : Shape := ⟨2, ![32, 1024]⟩
abbrev S1x1024 : Shape := ⟨2, ![1, 1024]⟩
abbrev S200000x1024 : Shape := ⟨2, ![200000, 1024]⟩
abbrev S2000x32 : Shape := ⟨2, ![2000, 32]⟩
abbrev S2000x1024 : Shape := ⟨2, ![2000, 1024]⟩
abbrev S200000x64x16 : Shape := ⟨3, ![200000, 64, 16]⟩

abbrev nBuf : Space → Nat
  | .hbm => 42
  | .vmem => 7
  | .smem => 0
  | _ => 0

abbrev bufTy : (tb : Table) → Fin (tcTables nBuf tb) → BufTy
  | .hbm, ⟨0, _⟩ => ⟨S200000x32, .f32⟩
  | .hbm, ⟨1, _⟩ => ⟨S64x16x32, .f32⟩
  | .hbm, ⟨2, _⟩ => ⟨S64x16, .f32⟩
  | .hbm, ⟨3, _⟩ => ⟨S64x16x2, .f32⟩
  | .hbm, ⟨4, _⟩ => ⟨S_, .f32⟩
  | .hbm, ⟨5, _⟩ => ⟨S64x16x32, .f32⟩
  | .hbm, ⟨6, _⟩ => ⟨S64x16x32, .f32⟩
  | .hbm, ⟨7, _⟩ => ⟨S_, .f32⟩
  | .hbm, ⟨8, _⟩ => ⟨S64x16, .f32⟩
  | .hbm, ⟨9, _⟩ => ⟨S_, .f32⟩
  | .hbm, ⟨10, _⟩ => ⟨S64x16, .f32⟩
  | .hbm, ⟨11, _⟩ => ⟨S64x16, .f32⟩
  | .hbm, ⟨12, _⟩ => ⟨S64x16x1, .f32⟩
  | .hbm, ⟨13, _⟩ => ⟨S64x16x32, .f32⟩
  | .hbm, ⟨14, _⟩ => ⟨S64x16x32, .f32⟩
  | .hbm, ⟨15, _⟩ => ⟨S64x16x32, .f32⟩
  | .hbm, ⟨16, _⟩ => ⟨S_, .f32⟩
  | .hbm, ⟨17, _⟩ => ⟨S64x16, .f32⟩
  | .hbm, ⟨18, _⟩ => ⟨S64x16x1, .f32⟩
  | .hbm, ⟨19, _⟩ => ⟨S64x16x32, .f32⟩
  | .hbm, ⟨20, _⟩ => ⟨S64x16x32, .f32⟩
  | .hbm, ⟨21, _⟩ => ⟨S1024x32, .f32⟩
  | .hbm, ⟨22, _⟩ => ⟨S32x1024, .f32⟩
  | .hbm, ⟨23, _⟩ => ⟨S1x1024, .f32⟩
  | .hbm, ⟨24, _⟩ => ⟨S64x16x1, .f32⟩
  | .hbm, ⟨25, _⟩ => ⟨S64x16, .f32⟩
  | .hbm, ⟨26, _⟩ => ⟨S1x1024, .f32⟩
  | .hbm, ⟨27, _⟩ => ⟨S64x16x1, .f32⟩
  | .hbm, ⟨28, _⟩ => ⟨S64x16, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S200000x1024, .f32⟩
  | .hbm, ⟨41, _⟩ => ⟨S200000x64x16, .f32⟩
  | .local _ .vmem, ⟨0, _⟩ => ⟨S2000x32, .f32⟩
  | .local _ .vmem, ⟨1, _⟩ => ⟨S2000x32, .f32⟩
  | .local _ .vmem, ⟨2, _⟩ => ⟨S32x1024, .f32⟩
  | .local _ .vmem, ⟨3, _⟩ => ⟨S1x1024, .f32⟩
  | .local _ .vmem, ⟨4, _⟩ => ⟨S1x1024, .f32⟩
  | .local _ .vmem, ⟨5, _⟩ => ⟨S2000x1024, .f32⟩
  | .local _ .vmem, ⟨6, _⟩ => ⟨S2000x1024, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x16x32 : S_.BroadcastsInDim S64x16x32 (![] : Fin 0 → Fin S64x16x32.rank)
  reducesTo_S64x16x32_S64x16_d2 : S64x16x32.ReducesTo [2] S64x16
  h_S_ : 0 < S_.numel
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S64x16x1_S64x16x32_0_1_2 : S64x16x1.BroadcastsInDim S64x16x32 (![0, 1, 2] : Fin 3 → Fin S64x16x32.rank)
  shapeCasts_S64x16x32_S1024x32 : S64x16x32.ShapeCasts S1024x32
  transposes_S1024x32_S32x1024_1_0 : S1024x32.Transposes [1, 0] S32x1024
  shapeCasts_S64x16_S1x1024 : S64x16.ShapeCasts S1x1024
  slices_S64x16x2_S64x16x1_0_0_0 : S64x16x2.Slices ![0, 0, 0] S64x16x1
  shapeCasts_S64x16x1_S64x16 : S64x16x1.ShapeCasts S64x16
  slices_S64x16x2_S64x16x1_0_0_1 : S64x16x2.Slices ![0, 0, 1] S64x16x1
  bcast_S_S1x1024 : S_.BroadcastsInDim S1x1024 (![] : Fin 0 → Fin S1x1024.rank)
  inb_S2000x32_S2000x32_0_0 : ∀ a, (![0, 0] : Fin 2 → Nat) a + S2000x32.size a ≤ S2000x32.size a
  h_S2000x32 : 0 < S2000x32.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  shapeCasts_S200000x1024_S200000x64x16 : S200000x1024.ShapeCasts S200000x64x16
  dot_S2000x32_S32x1024_S2000x1024_1_0_0_1_n_n_wf : DotDims.WF S2000x32 S32x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S200000x32.size a
  hwx0_0 : ∀ i : grid0.Coords, EltTy.bits .f32 = 32 ∨ (Rect.block (s := S200000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x1024.size a
  hwx0_1 : ∀ i : grid0.Coords, EltTy.bits .f32 = 32 ∨ (Rect.block (s := S32x1024) S32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1024.size a ≤ S200000x1024.size a
  hwx0_4 : ∀ i : grid0.Coords, EltTy.bits .f32 = 32 ∨ (Rect.block (s := S200000x1024) S2000x1024.size (cc0_transform_4 i) (hinb0_4 i)).WholeWords (EltTy.packing .f32)

variable [Facts₀]

def dot_S2000x32_S32x1024_S2000x1024_1_0_0_1_n_n : DotDims S2000x32 S32x1024 S2000x1024 where
  lhsContracting := [1]
  rhsContracting := [0]
  lhsNonContracting := [0]
  rhsNonContracting := [1]
  lhsBatch := []
  rhsBatch := []
  wf := dot_S2000x32_S32x1024_S2000x1024_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S32x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S2000x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S200000x32 : Shape := ⟨2, ![200000, 32]⟩
abbrev S64x16x32 : Shape := ⟨3, ![64, 16, 32]⟩
abbrev S64x16 : Shape := ⟨2, ![64, 16]⟩
abbrev S64x16x2 : Shape := ⟨3, ![64, 16, 2]⟩
abbrev S_ : Shape := ⟨0, ![]⟩
abbrev S64x16x1 : Shape := ⟨3, ![64, 16, 1]⟩
abbrev S200000x64x16 : Shape := ⟨3, ![200000, 64, 16]⟩
abbrev S1x64x16 : Shape := ⟨3, ![1, 64, 16]⟩

abbrev nBuf : Space → Nat
  | .hbm => 55
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S64x16x32, .f32⟩
  | .hbm, ⟨2, _⟩ => ⟨S64x16, .f32⟩
  | .hbm, ⟨3, _⟩ => ⟨S64x16x2, .f32⟩
  | .hbm, ⟨4, _⟩ => ⟨S_, .f32⟩
  | .hbm, ⟨5, _⟩ => ⟨S64x16x32, .f32⟩
  | .hbm, ⟨6, _⟩ => ⟨S64x16x32, .f32⟩
  | .hbm, ⟨7, _⟩ => ⟨S_, .f32⟩
  | .hbm, ⟨8, _⟩ => ⟨S64x16, .f32⟩
  | .hbm, ⟨9, _⟩ => ⟨S_, .f32⟩
  | .hbm, ⟨10, _⟩ => ⟨S64x16, .f32⟩
  | .hbm, ⟨11, _⟩ => ⟨S64x16, .f32⟩
  | .hbm, ⟨12, _⟩ => ⟨S64x16x1, .f32⟩
  | .hbm, ⟨13, _⟩ => ⟨S64x16x32, .f32⟩
  | .hbm, ⟨14, _⟩ => ⟨S64x16x32, .f32⟩
  | .hbm, ⟨15, _⟩ => ⟨S64x16x32, .f32⟩
  | .hbm, ⟨16, _⟩ => ⟨S_, .f32⟩
  | .hbm, ⟨17, _⟩ => ⟨S64x16, .f32⟩
  | .hbm, ⟨18, _⟩ => ⟨S64x16x1, .f32⟩
  | .hbm, ⟨19, _⟩ => ⟨S64x16x32, .f32⟩
  | .hbm, ⟨20, _⟩ => ⟨S64x16x32, .f32⟩
  | .hbm, ⟨21, _⟩ => ⟨S200000x64x16, .f32⟩
  | .hbm, ⟨22, _⟩ => ⟨S200000x64x16, .f32⟩
  | .hbm, ⟨23, _⟩ => ⟨S_, .f32⟩
  | .hbm, ⟨24, _⟩ => ⟨S200000x64x16, .f32⟩
  | .hbm, ⟨25, _⟩ => ⟨S200000x64x16, .i1⟩
  | .hbm, ⟨26, _⟩ => ⟨S_, .f32⟩
  | .hbm, ⟨27, _⟩ => ⟨S_, .f32⟩
  | .hbm, ⟨28, _⟩ => ⟨S200000x64x16, .f32⟩
  | .hbm, ⟨29, _⟩ => ⟨S200000x64x16, .f32⟩
  | .hbm, ⟨30, _⟩ => ⟨S1x64x16, .f32⟩
  | .hbm, ⟨31, _⟩ => ⟨S200000x64x16, .f32⟩
  | .hbm, ⟨32, _⟩ => ⟨S200000x64x16, .f32⟩
  | .hbm, ⟨33, _⟩ => ⟨S64x16x1, .f32⟩
  | .hbm, ⟨34, _⟩ => ⟨S64x16, .f32⟩
  | .hbm, ⟨35, _⟩ => ⟨S1x64x16, .f32⟩
  | .hbm, ⟨36, _⟩ => ⟨S64x16x1, .f32⟩
  | .hbm, ⟨37, _⟩ => ⟨S64x16, .f32⟩
  | .hbm, ⟨38, _⟩ => ⟨S1x64x16, .f32⟩
  | .hbm, ⟨39, _⟩ => ⟨S200000x64x16, .f32⟩
  | .hbm, ⟨40, _⟩ => ⟨S200000x64x16, .f32⟩
  | .hbm, ⟨41, _⟩ => ⟨S1x64x16, .f32⟩
  | .hbm, ⟨42, _⟩ => ⟨S_, .f32⟩
  | .hbm, ⟨43, _⟩ => ⟨S1x64x16, .f32⟩
  | .hbm, ⟨44, _⟩ => ⟨S1x64x16, .f32⟩
  | .hbm, ⟨45, _⟩ => ⟨S200000x64x16, .f32⟩
  | .hbm, ⟨46, _⟩ => ⟨S200000x64x16, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S200000x64x16, .f32⟩
  | .hbm, ⟨51, _⟩ => ⟨S200000x64x16, .f32⟩
  | .hbm, ⟨52, _⟩ => ⟨S_, .f32⟩
  | .hbm, ⟨53, _⟩ => ⟨S200000x64x16, .f32⟩
  | .hbm, ⟨54, _⟩ => ⟨S200000x64x16, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S_S64x16x32 : S_.BroadcastsInDim S64x16x32 (![] : Fin 0 → Fin S64x16x32.rank)
  reducesTo_S64x16x32_S64x16_d2 : S64x16x32.ReducesTo [2] S64x16
  h_S_ : 0 < S_.numel
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S64x16x1_S64x16x32_0_1_2 : S64x16x1.BroadcastsInDim S64x16x32 (![0, 1, 2] : Fin 3 → Fin S64x16x32.rank)
  bcast_S_S200000x64x16 : S_.BroadcastsInDim S200000x64x16 (![] : Fin 0 → Fin S200000x64x16.rank)
  bcast_S64x16_S1x64x16_1_2 : S64x16.BroadcastsInDim S1x64x16 (![1, 2] : Fin 2 → Fin S1x64x16.rank)
  bcast_S1x64x16_S200000x64x16_0_1_2 : S1x64x16.BroadcastsInDim S200000x64x16 (![0, 1, 2] : Fin 3 → Fin S200000x64x16.rank)
  slices_S64x16x2_S64x16x1_0_0_0 : S64x16x2.Slices ![0, 0, 0] S64x16x1
  shapeCasts_S64x16x1_S64x16 : S64x16x1.ShapeCasts S64x16
  slices_S64x16x2_S64x16x1_0_0_1 : S64x16x2.Slices ![0, 0, 1] S64x16x1
  bcast_S_S1x64x16 : S_.BroadcastsInDim S1x64x16 (![] : Fin 0 → Fin S1x64x16.rank)
  dot_S200000x32_S64x16x32_S200000x64x16_1_2_0_01_n_n_wf : DotDims.WF S200000x32 S64x16x32 S200000x64x16 [1] [2] [0] [0, 1] [] []

variable [Facts₀]

def dot_S200000x32_S64x16x32_S200000x64x16_1_2_0_01_n_n : DotDims S200000x32 S64x16x32 S200000x64x16 where
  lhsContracting := [1]
  rhsContracting := [2]
  lhsNonContracting := [0]
  rhsNonContracting := [0, 1]
  lhsBatch := []
  rhsBatch := []
  wf := dot_S200000x32_S64x16x32_S200000x64x16_1_2_0_01_n_n_wf

class Facts : Prop extends Facts₀ where

variable [Facts]
-- ==== Proof.LibMatmulSum.lean ====
/-
  The matrix unit's product with ONE contracted axis into a zero accumulator, on the extended reals and whatever
  precision it is asked for, read at an index as a plain sum over that axis: the caller names the two operands'
  indices at contraction position k, and the sum is re-indexed by the axis's one coordinate.
-/
import Idealize.ShloMosaic.Lib.ValueIdx
import Idealize.ShloMosaic.PureOps.Ideal.Laws

namespace Cert.Lib.MatmulSum

open Idealize.ShloMosaic Idealize.ShloMosaic.ValueIdx

/-- A product into zeros at an output index is the sum over the contracted axis of the operands' products, each read
    where the dimension numbers put it. -/
theorem matmul_zero_eq_sum {sl sr so : Shape} {φ₁ φ₂ : FTy} (d : DotDims sl sr so) (prec : Option ContractPrecision)
    (K : Nat) (hr : d.contr.rank = 1) (hs : d.contr.size ⟨0, by omega⟩ = K)
    (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d prec x w (constant so .f32 0x00000000#32) j = ∑ k : Fin K, x (li k) * w (ri k) := by
  show FloatOps.matmul d prec x w (constant so .f32 0x00000000#32) j = _
  rw [Ideal.matmul_constant_zero_apply, ← Equiv.sum_comp (contrEquiv1 d K hr hs).symm]
  exact Finset.sum_congr rfl fun k _ => by rw [hl k, hw k]

end Cert.Lib.MatmulSum
-- ==== Proof.FernPayload.lean ====
/-
  One tile of the kernel, read at an entry.

  A grid point handles 2000 rows of the input. Its body multiplies the [2000, 32] block of rows by the whole
  [32, 1024] matrix of softmax weights, replaces every product of absolute value below 1e-5 by zero, multiplies
  column-wise by the [1, 1024] row of reciprocal widths, adds the [1, 1024] row of offsets, and clips the result
  to [0, 1]. At the ideal instance the entry (r, q) of what it stores is therefore

      min 1 (max 0 (snap (Σ_k x(r, k) · w(k, q)) · scale(0, q) + offset(0, q)))

  where snap z is 0 when |z| < 1e-5 and z otherwise.
-/
import proofs.«106407_j44779329028744_2_alg».proof.Proof.Gen.KernelIdeal.Skeleton
import proofs.«106407_j44779329028744_2_alg».proof.Proof.LibMatmulSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FernPayload

open Idealize.ShloMosaic Idealize.ShloMosaic.ValueIdx Cert.KernelIdeal Cert.KernelIdeal.Gen

/-- Products of absolute value below the threshold 1e-5 (as a single-precision literal) are replaced by zero. -/
def snap (z : EReal) : EReal :=
  Scalar.select (FloatOps.cmpf (F := Ideal) (φ := .f32) .olt (FloatOps.absf (F := Ideal) (φ := .f32) z) (Ideal.ofBits .f32 0x3727C5AC#32))
    (Ideal.ofBits .f32 0x00000000#32) z

/-- The clipped affine map of a snapped product: what one entry of the output is, from the product `z`, the
    reciprocal width `s` and the offset `o`. -/
def clipAffine (z s o : EReal) : EReal :=
  min (Ideal.ofBits .f32 0x3F800000#32) (max (Ideal.ofBits .f32 0x00000000#32) (snap z * s + o))

/-- The row coordinate of the left operand's index is the output's row. -/
theorem lhs_row (j : S2000x1024.Idx) (p : (dot_S2000x32_S32x1024_S2000x1024_1_0_0_1_n_n).contr.Idx) :
    ((dot_S2000x32_S32x1024_S2000x1024_1_0_0_1_n_n).lhsIdx j p 0).val = (j 0).val := by
  unfold DotDims.lhsIdx
  rw [dif_neg (show ¬(0 : Fin S2000x32.rank) ∈ (dot_S2000x32_S32x1024_S2000x1024_1_0_0_1_n_n).lhsBatch by decide),
    dif_pos (show (0 : Fin S2000x32.rank) ∈ (dot_S2000x32_S32x1024_S2000x1024_1_0_0_1_n_n).lhsNonContracting by decide)]
  rfl
/-- Its feature coordinate is the contraction position. -/
theorem lhs_feat (j : S2000x1024.Idx) (p : (dot_S2000x32_S32x1024_S2000x1024_1_0_0_1_n_n).contr.Idx) :
    ((dot_S2000x32_S32x1024_S2000x1024_1_0_0_1_n_n).lhsIdx j p 1).val = (p ⟨0, by decide⟩).val :=
  (dot_S2000x32_S32x1024_S2000x1024_1_0_0_1_n_n).lhsIdx_val_of_single rfl j p
/-- The feature coordinate of the right operand's index is the contraction position. -/
theorem rhs_feat (j : S2000x1024.Idx) (p : (dot_S2000x32_S32x1024_S2000x1024_1_0_0_1_n_n).contr.Idx) :
    ((dot_S2000x32_S32x1024_S2000x1024_1_0_0_1_n_n).rhsIdx j p 0).val = (p ⟨0, by decide⟩).val :=
  (dot_S2000x32_S32x1024_S2000x1024_1_0_0_1_n_n).rhsIdx_val_of_single rfl j p
/-- Its column coordinate is the output's column. -/
theorem rhs_col (j : S2000x1024.Idx) (p : (dot_S2000x32_S32x1024_S2000x1024_1_0_0_1_n_n).contr.Idx) :
    ((dot_S2000x32_S32x1024_S2000x1024_1_0_0_1_n_n).rhsIdx j p 1).val = (j 1).val := by
  unfold DotDims.rhsIdx
  rw [dif_neg (show ¬(1 : Fin S32x1024.rank) ∈ (dot_S2000x32_S32x1024_S2000x1024_1_0_0_1_n_n).rhsBatch by decide),
    dif_pos (show (1 : Fin S32x1024.rank) ∈ (dot_S2000x32_S32x1024_S2000x1024_1_0_0_1_n_n).rhsNonContracting by decide)]
  rfl

/-- The block product at (r, q) is the sum over the 32 features. -/
theorem product_apply (x0 : Vec Ideal S2000x32 .f32) (x1 : Vec Ideal S32x1024 .f32) (r : Fin 2000) (q : Fin 1024) :
    matmul (F := Ideal) (φ₁ := .f32) (φ₂ := .f32) dot_S2000x32_S32x1024_S2000x1024_1_0_0_1_n_n none x0
        (shapeCast S32x1024 x1 Facts₀.shapeCasts_S32x1024_S32x1024) (constant S2000x1024 .f32 0x00000000#32) (ix2 r q)
      = ∑ k : Fin 32, x0 (ix2 r k) * x1 (ix2 k q) := by
  rw [shapeCast_self]
  refine Cert.Lib.MatmulSum.matmul_zero_eq_sum (φ₁ := .f32) (φ₂ := .f32) dot_S2000x32_S32x1024_S2000x1024_1_0_0_1_n_n none 32 rfl rfl x0 x1 (ix2 r q)
    (fun k => ix2 r k) (fun k => ix2 k q) (fun k => ?_) (fun k => ?_)
  · have hk := contrEquiv1_symm_val dot_S2000x32_S32x1024_S2000x1024_1_0_0_1_n_n 32 rfl rfl k
    funext a; apply Fin.ext
    match a with
    | ⟨0, _⟩ => exact lhs_row _ _
    | ⟨1, _⟩ => exact (lhs_feat _ _).trans hk
  · have hk := contrEquiv1_symm_val dot_S2000x32_S32x1024_S2000x1024_1_0_0_1_n_n 32 rfl rfl k
    funext a; apply Fin.ext
    match a with
    | ⟨0, _⟩ => exact (rhs_feat _ _).trans hk
    | ⟨1, _⟩ => exact rhs_col _ _

/-- A [1, 1024] row spread over the 2000 rows of the tile reads, at (r, q), the row's entry q. -/
theorem row_apply (v : Vec Ideal S1x1024 .f32) (r : Fin 2000) (q : Fin 1024) :
    broadcastTo S2000x1024 (shapeCast S1x1024 v Facts₀.shapeCasts_S1x1024_S1x1024) Facts₀.broadcasts_S1x1024_S2000x1024 (ix2 r q)
      = v (ix2 (0 : Fin 1) q) := by
  rw [shapeCast_self]
  exact broadcastTo_1b_ab_apply v _ r q

/-- The stored tile at (r, q). -/
theorem pay_apply (x0 : Vec Ideal S2000x32 .f32) (x1 : Vec Ideal S32x1024 .f32) (x2 x3 : Vec Ideal S1x1024 .f32)
    (r : Fin 2000) (q : Fin 1024) :
    k0_pay1 (F := Ideal) x0 x1 x2 x3 (ix2 r q)
      = clipAffine (∑ k : Fin 32, x0 (ix2 r k) * x1 (ix2 k q)) (x2 (ix2 (0 : Fin 1) q)) (x3 (ix2 (0 : Fin 1) q)) := by
  rw [← product_apply x0 x1 r q, ← row_apply x2 r q, ← row_apply x3 r q]
  rfl

end Cert.KernelIdeal.FernPayload

end
-- ==== Proof.FernTile.lean ====
/-
  From tiles to the whole [200000, 1024] array.

  The call's output is cut into 100 tiles of 2000 rows; grid point t reads rows 2000·t … 2000·t + 1999 of the
  input and the whole of the three small operands, and writes the same rows of the output. So the array the call
  leaves is ONE function of its four operand arrays, entry by entry:

      out(n, q) = min 1 (max 0 (snap (Σ_k T(n, k) · W(k, q)) · scale(0, q) + offset(0, q))) .

  Each tile is the restriction of that function to its rows, and the 100 tiles cover all 200000 rows (row n lies
  in tile n / 2000).
-/
import proofs.«106407_j44779329028744_2_alg».proof.Proof.Gen.KernelIdeal.Frame
import proofs.«106407_j44779329028744_2_alg».proof.Proof.FernPayload

set_option maxRecDepth 16384

noncomputable section

namespace Cert.KernelIdeal.FernTile

open Idealize.ShloMosaic Idealize.ShloMosaic.TcCoe Idealize.ShloMosaic.ValueIdx Idealize.SL.Sem
open Cert.KernelIdeal Cert.KernelIdeal.Gen Cert.KernelIdeal.FernPayload
open Idealize.ShloMosaic.Pipeline (Dat)

/-- The call as one function of its operand arrays: rows of inputs `T`, weights `W`, the row of reciprocal
    widths `sc` and the row of offsets `off`. -/
def region (T : S200000x32.Idx → EReal) (W : S32x1024.Idx → EReal) (sc off : S1x1024.Idx → EReal) :
    S200000x1024.Idx → EReal :=
  fun i => clipAffine (∑ k : Fin 32, T (ix2 (i 0) k) * W (ix2 k (i 1))) (sc (ix2 (0 : Fin 1) (i 1))) (off (ix2 (0 : Fin 1) (i 1)))

/-- An entry (p, q) of a tile is the entry of `region` at the array index (n, q') it sits at, once each loaded block
    is known to be the matching part of its array. -/
theorem tile_entry (x0 : Vec Ideal S2000x32 .f32) (x1 : Vec Ideal S32x1024 .f32) (x2 x3 : Vec Ideal S1x1024 .f32)
    (T : S200000x32.Idx → EReal) (W : S32x1024.Idx → EReal) (sc off : S1x1024.Idx → EReal)
    (p : Fin 2000) (q : Fin 1024) (n : Fin 200000) (q' : Fin 1024)
    (h0 : ∀ k : Fin 32, x0 (ix2 p k) = T (ix2 n k))
    (h1 : ∀ k : Fin 32, x1 (ix2 k q) = W (ix2 k q'))
    (h2 : x2 (ix2 (0 : Fin 1) q) = sc (ix2 (0 : Fin 1) q'))
    (h3 : x3 (ix2 (0 : Fin 1) q) = off (ix2 (0 : Fin 1) q')) :
    k0_pay1 (F := Ideal) x0 x1 x2 x3 (ix2 p q) = region T W sc off (ix2 n q') := by
  rw [pay_apply]
  show _ = clipAffine (∑ k : Fin 32, T (ix2 n k) * W (ix2 k q')) (sc (ix2 (0 : Fin 1) q')) (off (ix2 (0 : Fin 1) q'))
  rw [h2, h3]
  exact congrArg (fun z => clipAffine z _ _) (Finset.sum_congr rfl fun k _ => by rw [h0 k, h1 k])

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row tile moves with the point, every other block index is 0. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is tile `t` of `region` of the operand arrays as the call finds them. -/
theorem flushed_eq (c : Dev nD) (t : Fin cfg0.N) :
    (dats m 0 c).flushed 4 t = ((cfg0.win 4).blk t).view.read (Elt Ideal)
      (region (V m c main_arg0) (V m c main_v14) (V m c main_v26) (V m c main_v29)) := by
  show (cfg0.win 4).cut (grid0.coords t) ((dats m 0 c).after 4 t) = _
  rw [after0_4]
  unfold out0_4
  rw [View.canon_unit_zero hz]
  simp only [View.ld_unit_zero (S := S2000x32) hz, View.ld_unit_zero (S := S32x1024) hz, View.ld_unit_zero (S := S1x1024) hz]
  obtain ⟨e0, e1, e2, e3, e4, e5, e6, e7, e8, e9⟩ := idx_facts t
  have hN : cfg0.N = 100 := N_0
  have ht : t.val < 100 := hN ▸ t.isLt
  refine funext fun (j : S2000x1024.Idx) => ?_
  obtain ⟨p, q, rfl⟩ : ∃ (p : Fin 2000) (q : Fin 1024), j = ix2 p q := ⟨j 0, j 1, eq_ix2 j⟩
  have hemb : ((cfg0.win 4).blk t).view.emb (ix2 p q)
      = ix2 (⟨t.val * 2000 + p.val, by have := p.isLt; omega⟩ : Fin 200000) q := funext fun a => Fin.ext (by
    match a with
    | ⟨0, _⟩ => show win0_4.index t (0 : Fin 2) * 2000 + 1 * p.val = t.val * 2000 + p.val; omega
    | ⟨1, _⟩ => show win0_4.index t (1 : Fin 2) * 1024 + 1 * q.val = q.val; omega)
  show k0_pay1 (F := Ideal) (iblk m c 0 t) (iblk m c 1 t) (iblk m c 2 t) (iblk m c 3 t) (ix2 p q)
    = region (V m c main_arg0) (V m c main_v14) (V m c main_v26) (V m c main_v29) (((cfg0.win 4).blk t).view.emb (ix2 p q))
  rw [hemb]
  refine tile_entry (iblk m c 0 t) (iblk m c 1 t) (iblk m c 2 t) (iblk m c 3 t)
    (V m c main_arg0) (V m c main_v14) (V m c main_v26) (V m c main_v29) p q _ q ?_ ?_ ?_ ?_
  · intro k
    show V m c main_arg0 (((cfg0.win 0).blk t).view.emb (ix2 p k)) = _
    refine congrArg (V m c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 32 + 1 * k.val = k.val; omega
  · intro k
    show V m c main_v14 (((cfg0.win 1).blk t).view.emb (ix2 k q)) = _
    refine congrArg (V m c main_v14) (funext fun a => Fin.ext ?_)
    match a with
    | ⟨0, _⟩ => show win0_1.index t (0 : Fin 2) * 32 + 1 * k.val = k.val; omega
    | ⟨1, _⟩ => show win0_1.index t (1 : Fin 2) * 1024 + 1 * q.val = q.val; omega
  · show V m c main_v26 (((cfg0.win 2).blk t).view.emb (ix2 (0 : Fin 1) q)) = _
    refine congrArg (V m c main_v26) (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega
  · show V m c main_v29 (((cfg0.win 3).blk t).view.emb (ix2 (0 : Fin 1) q)) = _
    refine congrArg (V m c main_v29) (funext fun a => Fin.ext ?_)
    match a with
    | ⟨0, _⟩ => show win0_3.index t (0 : Fin 2) * 1 + 1 * 0 = 0; omega
    | ⟨1, _⟩ => show win0_3.index t (1 : Fin 2) * 1024 + 1 * q.val = q.val; omega

/-- An index of the output array is in point `t`'s tile iff each coordinate is in the tile's range on its axis. -/
theorem mem_tile (t : Fin cfg0.N) (i : S200000x1024.Idx) :
    i ∈ ((cfg0.win 4).blk t).view.set ↔ ∀ a : Fin 2, win0_4.index t a * S2000x1024.size a ≤ (i a).val ∧ (i a).val < win0_4.index t a * S2000x1024.size a + S2000x1024.size a := by
  show i ∈ ((View.whole main_v30).slice (win0_4.rect t)).set ↔ _
  rw [View.set_slice_whole, Rect.mem_set_unit]
  exact Iff.rfl

/-- Every row of the output lies in some tile: row n in tile n / 2000. -/
theorem cover (i : S200000x1024.Idx) :
    ∃ t : Fin cfg0.N, (cfg0.win 4).flush t = true ∧ i ∈ ((cfg0.win 4).blk t).view.set := by
  have hi0 : (i 0).val < 200000 := (i 0).isLt
  have hi1 : (i 1).val < 1024 := (i 1).isLt
  have hN : cfg0.N = 100 := N_0
  let t : Fin cfg0.N := ⟨(i 0).val / 2000, by rw [hN]; omega⟩
  obtain ⟨-, -, -, -, -, -, -, -, e8, e9⟩ := idx_facts t
  have e8' : win0_4.index t (0 : Fin 2) = (i 0).val / 2000 := e8
  refine ⟨t, flush0_4 t, ?_⟩
  rw [mem_tile]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 1024 ≤ (i 1).val ∧ (i 1).val < win0_4.index t (1 : Fin 2) * 1024 + 1024; omega

/-- The output array after the call is `region` of the operand arrays as the call finds them. -/
theorem final (c : Dev nD) :
    (dats m 0 c).arrAt 4 cfg0.N = region (V m c main_arg0) (V m c main_v14) (V m c main_v26) (V m c main_v29) :=
  (dats m 0 c).arrAt_eq_of_cover 4 _ (fun t _ => flushed_eq m c t) cover

end Cert.KernelIdeal.FernTile

end
-- ==== Proof.FernHost.lean ====
/-
  The three small operands the wrapper computes before the call, and the reshape after it.

  Before the call the wrapper computes, from the arguments alone,
    * the weights W = transpose (reshape (softmax alpha)) : [32, 1024], so W(d, 16·f + b) = softmax(alpha)(f, b, d);
    * the reciprocal widths  scale(0, 16·f + b) = 1 / (pos(f, b) − neg(f, b) + ε);
    * the offsets            offset(0, 16·f + b) = −(th(f, b) + neg(f, b)) · scale(0, 16·f + b);
  and after it reshapes the [200000, 1024] output to [200000, 64, 16], so entry (n, f, b) is entry (n, 16·f + b).
  The softmax is the same chain of operations in both programs; it is kept as one opaque term `softmax`.
-/
import proofs.«106407_j44779329028744_2_alg».proof.Proof.Gen.KernelIdeal.Frame
import proofs.«106407_j44779329028744_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.FernHost

open Idealize.ShloMosaic Idealize.ShloMosaic.TcCoe Idealize.ShloMosaic.ValueIdx Idealize.SL.Sem Idealize.ShloMosaic.StableHlo
open Cert.KernelIdeal Cert.KernelIdeal.Gen

/-- The softmax of the weights' logits over the feature axis: scale by one, subtract the row maximum (floored at
    minus infinity), exponentiate, divide by the row sum. Both programs apply exactly this chain. -/
def softmax (a : S64x16x32.Idx → EReal) : S64x16x32.Idx → EReal :=
  let a1 : S64x16x32.Idx → EReal := mulf (F := Ideal) (φ := .f32) a (broadcastInDim S64x16x32 ![] Facts₀.bcast_S_S64x16x32 (constant (F := Ideal) S_ .f32 0x3F800000#32))
  let mx : S64x16.Idx → EReal := maximumf (F := Ideal) (φ := .f32) (broadcastInDim S64x16 ![] Facts₀.bcast_S_S64x16 (constant (F := Ideal) S_ .f32 0xFF800000#32))
    (Host.reduce (FloatOps.maximumf (F := Ideal) (φ := .f32)) a1 (constant (F := Ideal) S_ .f32 0xFF800000#32) Facts₀.reducesTo_S64x16x32_S64x16_d2 Facts₀.h_S_)
  let e : S64x16x32.Idx → EReal := Host.exp (F := Ideal) (φ := .f32) (subf (F := Ideal) (φ := .f32) a1
    (broadcastInDim S64x16x32 ![0, 1, 2] Facts₀.bcast_S64x16x1_S64x16x32_0_1_2 (broadcastInDim S64x16x1 ![0, 1] Facts₀.bcast_S64x16_S64x16x1_0_1 mx)))
  Host.divf (F := Ideal) (φ := .f32) e
    (broadcastInDim S64x16x32 ![0, 1, 2] Facts₀.bcast_S64x16x1_S64x16x32_0_1_2 (broadcastInDim S64x16x1 ![0, 1] Facts₀.bcast_S64x16_S64x16x1_0_1
      (Host.reduceAdd (F := Ideal) (φ := .f32) e (constant (F := Ideal) S_ .f32 0x00000000#32) Facts₀.reducesTo_S64x16x32_S64x16_d2 Facts₀.h_S_)))

open Cert.ReferenceIdeal.Read in
/-- The reference's softmax stage is this chain. -/
theorem softmax_eq (a : S64x16x32.Idx → EReal) : Cert.ReferenceIdeal.Read.val_main_v12 (F := Ideal) a = softmax a := by
  unfold val_main_v12 val_main_v11 val_main_v10 val_main_v9 val_main_v8 val_main_v7 val_main_v6 val_main_v5 val_main_v4
    val_main_v3 val_main_v2 val_main_v1 val_main_v0 val_main_cst val_main_cst_0 val_main_cst_1 val_main_cst_2 softmax
  rfl
/-- Column 0 of the ambiguity thresholds as a [64, 16] array. -/
abbrev pos (a3 : S64x16x2.Idx → EReal) : S64x16.Idx → EReal := Cert.ReferenceIdeal.Read.val_main_v22 (F := Ideal) a3
/-- Column 1 of the ambiguity thresholds as a [64, 16] array. -/
abbrev neg (a3 : S64x16x2.Idx → EReal) : S64x16.Idx → EReal := Cert.ReferenceIdeal.Read.val_main_v25 (F := Ideal) a3

/-- The divisor as a [1, 1024] row. -/
def widthRow (a3 : S64x16x2.Idx → EReal) : S1x1024.Idx → EReal :=
  addf (F := Ideal) (φ := .f32) (subf (F := Ideal) (φ := .f32) (shapeCast S1x1024 (pos a3) Facts₀.shapeCasts_S64x16_S1x1024) (shapeCast S1x1024 (neg a3) Facts₀.shapeCasts_S64x16_S1x1024))
    (broadcastInDim S1x1024 ![] Facts₀.bcast_S_S1x1024 (constant (F := Ideal) S_ .f32 0x0F4AD2F8#32))
/-- The reciprocal widths as a [1, 1024] row. -/
def scaleRow (a3 : S64x16x2.Idx → EReal) : S1x1024.Idx → EReal :=
  Host.divf (F := Ideal) (φ := .f32) (broadcastInDim S1x1024 ![] Facts₀.bcast_S_S1x1024 (constant (F := Ideal) S_ .f32 0x3F800000#32)) (widthRow a3)
/-- The offsets as a [1, 1024] row. -/
def offsetRow (a2 : S64x16.Idx → EReal) (a3 : S64x16x2.Idx → EReal) : S1x1024.Idx → EReal :=
  mulf (F := Ideal) (φ := .f32) (Host.negf (F := Ideal) (φ := .f32) (addf (F := Ideal) (φ := .f32) (shapeCast S1x1024 a2 Facts₀.shapeCasts_S64x16_S1x1024) (shapeCast S1x1024 (neg a3) Facts₀.shapeCasts_S64x16_S1x1024)))
    (scaleRow a3)
/-- The weights as a [32, 1024] matrix. -/
def weights (a1 : S64x16x32.Idx → EReal) : S32x1024.Idx → EReal :=
  transpose S32x1024 [1, 0] (shapeCast S1024x32 (softmax a1) Facts₀.shapeCasts_S64x16x32_S1024x32) Facts₀.transposes_S1024x32_S32x1024_1_0

variable (m : (ℓ : Loc nD τ sig) → Buf (Elt Ideal) ℓ)

set_option maxHeartbeats 2000000 in
/-- The weights operand as the call finds it. -/
theorem V_weights (c : Dev nD) : (V m c main_v14 : S32x1024.Idx → EReal) = weights (m ((c : Thread nD τ).loc main_arg1)) := by
  show StableHlo.after hostOps0 (fun b => m (c, b)) (Proc.devRef .tc main_v14) = _
  after_results
  rfl

set_option maxHeartbeats 2000000 in
/-- The reciprocal-width operand as the call finds it. -/
theorem V_scale (c : Dev nD) : (V m c main_v26 : S1x1024.Idx → EReal) = scaleRow (m ((c : Thread nD τ).loc main_arg3)) := by
  show StableHlo.after hostOps0 (fun b => m (c, b)) (Proc.devRef .tc main_v26) = _
  after_results
  rfl

set_option maxHeartbeats 2000000 in
/-- The offset operand as the call finds it. -/
theorem V_offset (c : Dev nD) : (V m c main_v29 : S1x1024.Idx → EReal) = offsetRow (m ((c : Thread nD τ).loc main_arg2)) (m ((c : Thread nD τ).loc main_arg3)) := by
  show StableHlo.after hostOps0 (fun b => m (c, b)) (Proc.devRef .tc main_v29) = _
  after_results
  rfl

/-! ### The operands at an entry -/

/-- Column 16·f + b of the flattened (fern, bit) axis. -/
abbrev col (f : Fin 64) (b : Fin 16) : Fin 1024 := ⟨f.val * 16 + b.val, by have := f.isLt; have := b.isLt; omega⟩

/-- A [64, 16] array flattened to a [1, 1024] row reads, at column 16·f + b, its entry (f, b). -/
theorem flat_apply (y : S64x16.Idx → EReal) (f : Fin 64) (b : Fin 16) :
    shapeCast S1x1024 y Facts₀.shapeCasts_S64x16_S1x1024 (ix2 (0 : Fin 1) (col f b)) = y (ix2 f b) :=
  shapeCast_apply y _ _ _ (by
    rw [Shape.rowMajor_val_two, Shape.rowMajor_val_two]
    show f.val * 16 + b.val = 0 * 1024 + (f.val * 16 + b.val)
    omega)

theorem weights_apply (a1 : S64x16x32.Idx → EReal) (d : Fin 32) (f : Fin 64) (b : Fin 16) :
    weights a1 (ix2 d (col f b)) = softmax a1 (ix3 f b d) := by
  unfold weights
  rw [transpose_ix2_apply]
  exact shapeCast_apply _ _ _ _ (by
    rw [Shape.rowMajor_val_three, Shape.rowMajor_val_two]
    show (f.val * 16 + b.val) * 32 + d.val = (f.val * 16 + b.val) * 32 + d.val
    rfl)

theorem widthRow_apply (a3 : S64x16x2.Idx → EReal) (f : Fin 64) (b : Fin 16) :
    widthRow a3 (ix2 (0 : Fin 1) (col f b)) = (pos a3 (ix2 f b) - neg a3 (ix2 f b)) + Ideal.ofBits .f32 0x0F4AD2F8#32 := by
  show (shapeCast S1x1024 (pos a3) Facts₀.shapeCasts_S64x16_S1x1024 (ix2 (0 : Fin 1) (col f b))
      - shapeCast S1x1024 (neg a3) Facts₀.shapeCasts_S64x16_S1x1024 (ix2 (0 : Fin 1) (col f b))) + _ = _
  rw [flat_apply, flat_apply]
  rfl

theorem scaleRow_apply (a3 : S64x16x2.Idx → EReal) (f : Fin 64) (b : Fin 16) :
    scaleRow a3 (ix2 (0 : Fin 1) (col f b))
      = Ideal.div (Ideal.ofBits .f32 0x3F800000#32) ((pos a3 (ix2 f b) - neg a3 (ix2 f b)) + Ideal.ofBits .f32 0x0F4AD2F8#32) := by
  rw [← widthRow_apply]
  rfl

theorem offsetRow_apply (a2 : S64x16.Idx → EReal) (a3 : S64x16x2.Idx → EReal) (f : Fin 64) (b : Fin 16) :
    offsetRow a2 a3 (ix2 (0 : Fin 1) (col f b))
      = (-(a2 (ix2 f b) + neg a3 (ix2 f b))) * scaleRow a3 (ix2 (0 : Fin 1) (col f b)) := by
  show (-(shapeCast S1x1024 a2 Facts₀.shapeCasts_S64x16_S1x1024 (ix2 (0 : Fin 1) (col f b))
      + shapeCast S1x1024 (neg a3) Facts₀.shapeCasts_S64x16_S1x1024 (ix2 (0 : Fin 1) (col f b)))) * _ = _
  rw [flat_apply, flat_apply]

/-- The [200000, 1024] output reshaped to [200000, 64, 16] reads, at (n, f, b), its entry (n, 16·f + b). -/
theorem unflatten_apply (y : S200000x1024.Idx → EReal) (n : Fin 200000) (f : Fin 64) (b : Fin 16) :
    shapeCast S200000x64x16 y Facts₀.shapeCasts_S200000x1024_S200000x64x16 (ix3 n f b) = y (ix2 n (col f b)) :=
  shapeCast_apply y _ _ _ (by
    rw [Shape.rowMajor_val_two, Shape.rowMajor_val_three]
    show n.val * 1024 + (f.val * 16 + b.val) = (n.val * 64 + f.val) * 16 + b.val
    omega)

end Cert.KernelIdeal.FernHost

end
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.FernPre.lean ====
/-
  What the precondition says, read back at the ideal instance.

  The precondition is one boolean: every entry of each of the four inputs has absolute value strictly below plus
  infinity, and every entry of  pos − neg + ε  (the reference's divisor: the two columns of the ambiguity
  thresholds and the small constant ε) differs from zero. Here it is opened into the three facts the value
  proof uses: the thresholds `th` are real numbers, the ambiguity thresholds are real numbers, and the divisor is
  nonzero at every (fern, bit) position. The first two inputs' finiteness is not needed by the proof.
-/
import proofs.«106407_j44779329028744_2_alg».proof.Pre_finite_inputs
import proofs.«106407_j44779329028744_2_alg».proof.Proof.Gen.ReferenceIdeal.Read
import proofs.«106407_j44779329028744_2_alg».proof.Proof.LibFiniteOps
import Idealize.ShloMosaic.Lib.ReduceAll
import Idealize.ShloMosaic.Lib.ValueIdx

noncomputable section

namespace Cert.FernPre

open Idealize.ShloMosaic Cert.LibFiniteOps

variable [Cert.Pre_finite_inputs.Facts] [Cert.ReferenceIdeal.Facts]

instance : Subsingleton Cert.Pre_finite_inputs.S_.Idx := ⟨fun a b => funext fun d => d.elim0⟩

/-- The positive ambiguity threshold of each (fern, bit): column 0 of the thresholds, as a [64, 16] array. -/
abbrev pos (a3 : FVec Ideal Cert.ReferenceIdeal.S64x16x2 .f32) : FVec Ideal Cert.ReferenceIdeal.S64x16 .f32 :=
  Cert.ReferenceIdeal.Read.val_main_v22 (F := Ideal) a3
/-- The negative ambiguity threshold of each (fern, bit): column 1 of the thresholds, as a [64, 16] array. -/
abbrev neg (a3 : FVec Ideal Cert.ReferenceIdeal.S64x16x2 .f32) : FVec Ideal Cert.ReferenceIdeal.S64x16 .f32 :=
  Cert.ReferenceIdeal.Read.val_main_v25 (F := Ideal) a3

/-- The precondition opened: thresholds real, ambiguity thresholds real, divisor nonzero everywhere. -/
theorem decode (a0 : FVec Ideal Cert.Pre_finite_inputs.S200000x32 .f32) (a1 : FVec Ideal Cert.Pre_finite_inputs.S64x16x32 .f32)
    (a2 : FVec Ideal Cert.Pre_finite_inputs.S64x16 .f32) (a3 : FVec Ideal Cert.Pre_finite_inputs.S64x16x2 .f32)
    (h : Cert.Pre_finite_inputs.fn (F := Ideal) a0 a1 a2 a3 = fun _ => 1#1) :
    AllReal a2 ∧ AllReal a3 ∧
      ∀ i : Cert.ReferenceIdeal.S64x16.Idx, (pos a3 i - neg a3 i) + Ideal.ofBits .f32 0x0F4AD2F8#32 ≠ (0 : EReal) := by
  have h0 := congrFun h ValueIdx.ix0
  dsimp only [Cert.Pre_finite_inputs.fn, Cert.Pre_finite_inputs.fn_part1] at h0
  obtain ⟨h18, h28⟩ := IntOp.andi_eq_one.1 h0
  obtain ⟨h13, h17⟩ := IntOp.andi_eq_one.1 h18
  obtain ⟨h8, h12⟩ := IntOp.andi_eq_one.1 h13
  refine ⟨?_, ?_, ?_⟩
  · exact allReal_of_abs_lt_top (fun i => ofBits_7F800000) (fun i => Host.reduce_andi_all _ _ _ _ _ h12 i)
  · exact allReal_of_abs_lt_top (fun i => ofBits_7F800000) (fun i => Host.reduce_andi_all _ _ _ _ _ h17 i)
  · intro i
    have hi := Host.reduce_andi_all _ _ _ _ _ h28 i
    have hi' : BitVec.ofBool (decide ((pos a3 i - neg a3 i) + Ideal.ofBits .f32 0x0F4AD2F8#32 ≠ Ideal.ofBits .f32 0x00000000#32)) = 1#1 := hi
    have hz : Ideal.ofBits .f32 0x00000000#32 = (0 : EReal) := by simp [Ideal.ofBits, Ideal.ieee]
    rw [hz] at hi'
    intro hc
    simp [hc] at hi'

end Cert.FernPre

end
-- ==== Proof.LibShiftScale.lean ====
/-
  A general law of the extended reals with the ideal quotient: an affine map written as a product with a
  reciprocal plus a shift equals the quotient of the shifted value.

  For real numbers `t`, `n` and a NONZERO real divisor `D`, and for ANY extended real `x` (an infinity
  included),

      x · (1 / D) + (−(t + n)) · (1 / D)  =  ((x − t) − n) / D .

  On real `x` this is the distributive law of the real numbers. At an infinity both sides are the infinity
  whose sign is the sign of `x` times the sign of `D`: the real shift is absorbed on the left, the two real
  subtrahends are absorbed on the right. The divisor must be nonzero: the ideal quotient by zero is an infinity
  by the sign of the dividend, and the identity fails there.
-/
import Idealize.ShloMosaic.PureOps.Ideal

noncomputable section

namespace Cert.LibShiftScale

open Idealize.ShloMosaic

/-- The law for a real divisor `d ≠ 0` and real shifts, at any extended real `x`. -/
theorem scale_shift_coe (x : EReal) (t n d : ℝ) (hd : d ≠ 0) :
    x * Ideal.div 1 (d : EReal) + (-((t : EReal) + (n : EReal))) * Ideal.div 1 (d : EReal)
      = Ideal.div ((x - (t : EReal)) - (n : EReal)) (d : EReal) := by
  rw [Ideal.div_coe hd, Ideal.div_coe hd, one_mul]
  have hs : (1 / d : ℝ) ≠ 0 := one_div_ne_zero hd
  generalize (1 / d : ℝ) = s at hs
  have hc : (-((t : EReal) + (n : EReal))) * (s : EReal) = ((-(t + n) * s : ℝ) : EReal) := by
    rw [← EReal.coe_add, ← EReal.coe_neg, ← EReal.coe_mul]
  rw [hc]
  induction x using EReal.rec with
  | bot =>
    rw [EReal.bot_sub, EReal.bot_sub]
    rcases lt_or_gt_of_ne hs with h | h
    · rw [EReal.bot_mul_coe_of_neg h, EReal.top_add_coe]
    · rw [EReal.bot_mul_coe_of_pos h, EReal.bot_add]
  | coe r =>
    rw [← EReal.coe_mul, ← EReal.coe_add, ← EReal.coe_sub, ← EReal.coe_sub, ← EReal.coe_mul]
    congr 1
    ring
  | top =>
    rw [EReal.top_sub_coe, EReal.top_sub_coe]
    rcases lt_or_gt_of_ne hs with h | h
    · rw [EReal.top_mul_coe_of_neg h, EReal.bot_add]
    · rw [EReal.top_mul_coe_of_pos h, EReal.top_add_coe]

/-- The same law with the three real quantities given as extended reals known to be real. -/
theorem scale_shift (x t n D : EReal) (ht : ∃ r : ℝ, t = (r : EReal)) (hn : ∃ r : ℝ, n = (r : EReal))
    (hD : ∃ r : ℝ, D = (r : EReal)) (hD0 : D ≠ 0) :
    x * Ideal.div 1 D + (-(t + n)) * Ideal.div 1 D = Ideal.div ((x - t) - n) D := by
  obtain ⟨t, rfl⟩ := ht
  obtain ⟨n, rfl⟩ := hn
  obtain ⟨d, rfl⟩ := hD
  exact scale_shift_coe x t n d (fun h => hD0 (by rw [h]; rfl))

end Cert.LibShiftScale

end
-- ==== Proof.FernBridge.lean ====
/-
  The two programs compute one function.

  Kernel, entry (n, f, b), with  z = Σ_d T(n, d) · softmax(alpha)(f, b, d),  D = pos(f, b) − neg(f, b) + ε:

      min 1 (max 0 (snap z · (1 / D) + (−(th(f, b) + neg(f, b))) · (1 / D)))

  Reference, same entry:

      min 1 (max 0 (((snap z − th(f, b)) − neg(f, b)) / D))

  The thresholds are real numbers and D is a nonzero real number (the precondition), so the two affine forms are
  equal for every extended real snap z: on real values by distributivity, at an infinity because both sides are
  the infinity of the same sign.
-/
import proofs.«106407_j44779329028744_2_alg».proof.Proof.FernTile
import proofs.«106407_j44779329028744_2_alg».proof.Proof.FernHost
import proofs.«106407_j44779329028744_2_alg».proof.Proof.FernPre
import proofs.«106407_j44779329028744_2_alg».proof.Proof.LibShiftScale

set_option maxRecDepth 16384

noncomputable section

namespace Cert.KernelIdeal.FernBridge

open Idealize.ShloMosaic Idealize.ShloMosaic.TcCoe Idealize.ShloMosaic.ValueIdx Idealize.SL.Sem
open Cert.KernelIdeal Cert.KernelIdeal.Gen Cert.KernelIdeal.FernPayload Cert.KernelIdeal.FernTile Cert.KernelIdeal.FernHost
open Cert.LibFiniteOps Cert.ReferenceIdeal.Read

/-- The single-precision pattern 0x3F800000 denotes the real number one. -/
theorem one_lit : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- The single-precision pattern 0x0F4AD2F8 (exponent field 30, fraction 4903672), the float nearest to ten to
    the minus twenty-nine, denotes the dyadic rational (2^23 + 4903672) / 2^120. -/
theorem eps_lit : Ideal.ofBits .f32 0x0F4AD2F8#32 = ((13292280 / 2 ^ 120 : ℝ) : EReal) := by
  simp [Ideal.ofBits, Ideal.ieee, -EReal.coe_mul]; norm_num

/-- The kernel's clipped affine form is the reference's clipped quotient, for real thresholds and a nonzero real divisor. -/
theorem clip_eq (z t n D : EReal) (ht : ∃ r : ℝ, t = (r : EReal)) (hn : ∃ r : ℝ, n = (r : EReal))
    (hD : ∃ r : ℝ, D = (r : EReal)) (hD0 : D ≠ 0) :
    clipAffine z (Ideal.div (Ideal.ofBits .f32 0x3F800000#32) D) ((-(t + n)) * Ideal.div (Ideal.ofBits .f32 0x3F800000#32) D)
      = min (Ideal.ofBits .f32 0x3F800000#32) (max (Ideal.ofBits .f32 0x00000000#32) (Ideal.div ((snap z - t) - n) D)) := by
  unfold clipAffine
  rw [← Cert.LibShiftScale.scale_shift (snap z) t n D ht hn hD hD0, one_lit]

/-- The kernel's result array as a function of the four arguments. -/
def kernelOut (x0 : S200000x32.Idx → EReal) (x1 : S64x16x32.Idx → EReal) (x2 : S64x16.Idx → EReal) (x3 : S64x16x2.Idx → EReal) :
    S200000x64x16.Idx → EReal :=
  shapeCast S200000x64x16 (region x0 (weights x1) (scaleRow x3) (offsetRow x2 x3)) Facts₀.shapeCasts_S200000x1024_S200000x64x16

/-- Each ambiguity threshold column is real when the thresholds are. -/
theorem pos_real (x3 : S64x16x2.Idx → EReal) (h3 : AllReal x3) (i : S64x16.Idx) : ∃ r : ℝ, pos x3 i = (r : EReal) := by
  have e : pos x3 i = x3 (idx_main_v21 (idx_main_v22 i)) := (val_main_v22_apply (F := Ideal) x3 i).trans (val_main_v21_apply (F := Ideal) x3 _)
  rw [e]; exact h3 _
theorem neg_real (x3 : S64x16x2.Idx → EReal) (h3 : AllReal x3) (i : S64x16.Idx) : ∃ r : ℝ, neg x3 i = (r : EReal) := by
  have e : neg x3 i = x3 (idx_main_v24 (idx_main_v25 i)) := (val_main_v25_apply (F := Ideal) x3 i).trans (val_main_v24_apply (F := Ideal) x3 _)
  rw [e]; exact h3 _

/-- Entry by entry, the kernel's result is the reference's, when the thresholds are real and the divisor is nonzero. -/
theorem kernelOut_eq (x0 : S200000x32.Idx → EReal) (x1 : S64x16x32.Idx → EReal) (x2 : S64x16.Idx → EReal) (x3 : S64x16x2.Idx → EReal)
    (h2 : AllReal x2) (h3 : AllReal x3)
    (hD : ∀ i : S64x16.Idx, (pos x3 i - neg x3 i) + Ideal.ofBits .f32 0x0F4AD2F8#32 ≠ (0 : EReal)) :
    kernelOut x0 x1 x2 x3 = val_main_v34 (F := Ideal) x0 x1 x2 x3 := by
  funext i
  obtain ⟨n, f, b, rfl⟩ : ∃ (n : Fin 200000) (f : Fin 64) (b : Fin 16), i = ix3 n f b := ⟨i 0, i 1, i 2, eq_ix3 i⟩
  unfold kernelOut
  rw [unflatten_apply]
  show clipAffine (∑ k : Fin 32, x0 (ix2 n k) * weights x1 (ix2 k (col f b))) (scaleRow x3 (ix2 (0 : Fin 1) (col f b)))
    (offsetRow x2 x3 (ix2 (0 : Fin 1) (col f b))) = _
  simp only [weights_apply, offsetRow_apply, scaleRow_apply]
  have hDr : ∃ r : ℝ, (pos x3 (ix2 f b) - neg x3 (ix2 f b)) + Ideal.ofBits .f32 0x0F4AD2F8#32 = (r : EReal) :=
    real_add (real_sub (pos_real x3 h3 _) (neg_real x3 h3 _)) ⟨_, eps_lit⟩
  rw [clip_eq _ _ _ _ (h2 (ix2 f b)) (neg_real x3 h3 _) hDr (hD (ix2 f b))]
  have el : ∀ k : Fin 32, lidx_main_v13 (ix3 n f b) k = ix2 n k := fun k =>
    funext fun a => Fin.ext (by match a with | ⟨0, _⟩ => rfl | ⟨1, _⟩ => rfl)
  have er : ∀ k : Fin 32, ridx_main_v13 (ix3 n f b) k = ix3 f b k := fun k =>
    funext fun a => Fin.ext (by match a with | ⟨0, _⟩ => rfl | ⟨1, _⟩ => rfl | ⟨2, _⟩ => rfl)
  have e2 : idx_main_v18 (idx_main_v19 (ix3 n f b)) = ix2 f b :=
    funext fun a => Fin.ext (by match a with | ⟨0, _⟩ => rfl | ⟨1, _⟩ => rfl)
  have e27 : idx_main_v26 (idx_main_v27 (ix3 n f b)) = ix2 f b :=
    funext fun a => Fin.ext (by match a with | ⟨0, _⟩ => rfl | ⟨1, _⟩ => rfl)
  have e23 : idx_main_v23 (idx_main_v32 (ix3 n f b)) = ix2 f b :=
    funext fun a => Fin.ext (by match a with | ⟨0, _⟩ => rfl | ⟨1, _⟩ => rfl)
  have e26 : idx_main_v26 (idx_main_v32 (ix3 n f b)) = ix2 f b :=
    funext fun a => Fin.ext (by match a with | ⟨0, _⟩ => rfl | ⟨1, _⟩ => rfl)
  rw [val_main_v34_apply, val_main_call1_v4_apply, val_main_call1_v3_apply, val_main_cst_7_apply, val_main_call1_v2_apply,
    val_main_call1_v1_apply, val_main_call1_v0_apply, val_main_cst_6_apply, val_main_v33_apply, val_main_v28_apply,
    val_main_v20_apply, val_main_v17_apply, val_main_v16_apply, val_main_v14_apply, val_main_v13_apply, val_main_v15_apply,
    val_main_cst_3_apply, val_main_call0_v1_apply, val_main_call0_v0_apply, val_main_cst_4_apply, val_main_v19_apply,
    val_main_v18_apply, val_main_v27_apply, val_main_v26_apply, val_main_v32_apply, val_main_v31_apply, val_main_v29_apply,
    val_main_v23_apply, val_main_v26_apply, val_main_v30_apply, val_main_cst_5_apply]
  simp only [el, er, e2, e27, e23, e26, softmax_eq]
  rfl

end Cert.KernelIdeal.FernBridge

end
-- ==== Proof.FernRun.lean ====
/-
  The kernel program's run, with its result named.

  The program is: the wrapper's operations before the call, the call, one reshape after it. The call leaves the
  [200000, 1024] array `region` of its operands; the reshape reads it as [200000, 64, 16]; the operands are the
  wrapper's functions of the arguments. So every execution ends with the result array at `kernelOut` of the four
  arguments, and the arguments unchanged.
-/
import proofs.«106407_j44779329028744_2_alg».proof.Proof.FernBridge

set_option maxRecDepth 16384

noncomputable section

namespace Cert.KernelIdeal.FernRun

open Idealize.ShloMosaic Idealize.ShloMosaic.TcCoe Idealize.ShloMosaic.ValueIdx Idealize.SL.Sem Idealize.ShloMosaic.StableHlo
open Cert.KernelIdeal Cert.KernelIdeal.Gen Cert.KernelIdeal.FernTile Cert.KernelIdeal.FernHost Cert.KernelIdeal.FernBridge
open Idealize.ShloMosaic.Pipeline (Dat)

variable (m : (ℓ : Loc nD τ sig) → Buf (Elt Ideal) ℓ) (ρ : Dev nD → PrngReg)

/-- After the call, the reshape reads the call's output array. -/
theorem tail_eq (c : Dev nD) :
    Pipeline.afterTail₀ cfgs (dats m) 0 (V0 m) [hostOps1] c main_v31
      = shapeCast S200000x64x16 ((dats m 0 c).arrAt 4 cfg0.N) Facts₀.shapeCasts_S200000x1024_S200000x64x16 := by
  unfold Pipeline.afterTail₀
  show StableHlo.after hostOps1 _ (Proc.devRef .tc main_v31) = _
  after_results
  exact congrArg (fun y => shapeCast S200000x64x16 y Facts₀.shapeCasts_S200000x1024_S200000x64x16)
    (Pipeline.withArrays_arr spec0 launch0.win.arr_inj c _ _ 4)

/-- The result buffer's final contents as a function of the arguments. -/
theorem result_eq (c : Dev nD) :
    Pipeline.afterTail₀ cfgs (dats m) 0 (V0 m) [hostOps1] c main_v31
      = kernelOut (m ((c : Thread nD τ).loc main_arg0)) (m ((c : Thread nD τ).loc main_arg1))
          (m ((c : Thread nD τ).loc main_arg2)) (m ((c : Thread nD τ).loc main_arg3)) := by
  rw [tail_eq, final, V_weights, V_scale, V_offset, V_main_arg0]
  rfl

/-- Every weakly fair execution of the kernel program terminates with the result at `kernelOut` of the arguments and
    the arguments unchanged. -/
theorem run : θ_run defs (onTc (τ := τ) (main (F := Ideal))) ⟨m, fun _ => 0, ρ⟩ (fun r => ∀ c : Dev nD,
      r.2.mem ((c.tc : Thread nD τ).loc main_v31)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v31 (Pipeline.mem_restRefs_of main_v31 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.FernRun

end
-- ==== Proof.lean ====
/-
  Soft-fern bit responses: a tiled kernel against its reference, on the extended reals.

  Both programs take inputs T [200000, 32], logits alpha [64, 16, 32], thresholds th [64, 16] and ambiguity
  thresholds amb [64, 16, 2] (column 0 = pos, column 1 = neg) and return B [200000, 64, 16]:

      z(n, f, b) = Σ_d T(n, d) · softmax(alpha)(f, b, d),   snapped to 0 when |z| < 1e-5,
      B(n, f, b) = clip((z − th(f, b) − neg(f, b)) / (pos(f, b) − neg(f, b) + ε), 0, 1).

  The reference computes exactly that. The kernel folds the subtraction and the division into one multiply-add:
  scale = 1 / (pos − neg + ε), offset = −(th + neg) · scale, B = clip(z · scale + offset, 0, 1), and computes z tile by
  tile (2000 rows per grid point) as a matrix product with the flattened, transposed softmax.

  The precondition: every input finite, and the divisor pos − neg + ε nonzero. Under it the two forms agree for
  every extended real z (Proof/LibShiftScale.lean); with a zero divisor they do not (the kernel's offset becomes an
  infinity of the opposite sign). The softmax is the same chain of operations in both programs and is never opened.

  Modules: FernPre (the precondition read back), FernPayload (one tile at an entry), FernTile (tiles to the whole
  array), FernHost (the wrapper's operands and the final reshape), FernBridge (the two results are one function),
  FernRun (the kernel program's run).
-/
import proofs.«106407_j44779329028744_2_alg».proof.Defs
import proofs.«106407_j44779329028744_2_alg».proof.Proof.Gen.Kernel
import proofs.«106407_j44779329028744_2_alg».proof.Proof.Gen.Kernel.Skeleton
import proofs.«106407_j44779329028744_2_alg».proof.Proof.Gen.Kernel.Launch
import proofs.«106407_j44779329028744_2_alg».proof.Proof.Gen.Kernel.Points
import proofs.«106407_j44779329028744_2_alg».proof.Proof.Gen.Kernel.Frame
import proofs.«106407_j44779329028744_2_alg».proof.Proof.Gen.KernelIdeal
import proofs.«106407_j44779329028744_2_alg».proof.Proof.Gen.KernelIdeal.Skeleton
import proofs.«106407_j44779329028744_2_alg».proof.Proof.Gen.KernelIdeal.Launch
import proofs.«106407_j44779329028744_2_alg».proof.Proof.Gen.KernelIdeal.Points
import proofs.«106407_j44779329028744_2_alg».proof.Proof.Gen.KernelIdeal.Frame
import proofs.«106407_j44779329028744_2_alg».proof.Proof.Gen.ReferenceIdeal
import proofs.«106407_j44779329028744_2_alg».proof.Proof.Gen.ReferenceIdeal.Run
import proofs.«106407_j44779329028744_2_alg».proof.Proof.Gen.ReferenceIdeal.Read
import proofs.«106407_j44779329028744_2_alg».proof.Proof.Gen.Pre_finite_inputs
import proofs.«106407_j44779329028744_2_alg».proof.Proof.FernRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both programs end with the same result: the
    kernel's at `kernelOut` of the arguments, the reference's at its composed term, and the two are equal entry by
    entry because the thresholds are real and the divisor is a nonzero real. -/
theorem algebraic : Cert.algebraic_KernelIdeal_ReferenceIdeal := by
  intro m ρ m' ρ' hpre hagree
  refine ⟨_, Cert.KernelIdeal.FernRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2]
  obtain ⟨h2, h3, hD⟩ := Cert.FernPre.decode _ _ _ _ (hpre c)
  exact (Cert.KernelIdeal.FernBridge.kernelOut_eq _ _ _ _ h2 h3 hD).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
